-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S64x8192 .f32) (main_arg1 : IVec S8192x8192 32) (main_arg2 : FVec F S8192 .f32) (main_arg3 : IVec S8192 32) (main_arg4 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S64x8192 : Shape := ⟨2, ![64, 8192]⟩
abbrev S8192x8192 : Shape := ⟨2, ![8192, 8192]⟩
abbrev S8192 : Shape := ⟨1, ![8192]⟩
abbrev S64x2048 : Shape := ⟨2, ![64, 2048]⟩
abbrev S1024x2048 : Shape := ⟨2, ![1024, 2048]⟩
abbrev S1024 : Shape := ⟨1, ![1024]⟩
abbrev S64x1024 : Shape := ⟨2, ![64, 1024]⟩
abbrev S1024x1 : Shape := ⟨2, ![1024, 1]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S8192, .f32⟩
  | .hbm, ⟨3, _⟩ => ⟨S8192, .i32⟩
  | .hbm, ⟨4, _⟩ => ⟨S8192, .f32⟩
  | .hbm, ⟨5, _⟩ => ⟨S64x8192, .f32⟩
  | .local _ .vmem, ⟨0, _⟩ => ⟨S64x2048, .f32⟩
  | .local _ .vmem, ⟨1, _⟩ => ⟨S64x2048, .f32⟩
  | .local _ .vmem, ⟨2, _⟩ => ⟨S1024x2048, .i32⟩
  | .local _ .vmem, ⟨3, _⟩ => ⟨S1024x2048, .i32⟩
  | .local _ .vmem, ⟨4, _⟩ => ⟨S1024, .f32⟩
  | .local _ .vmem, ⟨5, _⟩ => ⟨S1024, .f32⟩
  | .local _ .vmem, ⟨6, _⟩ => ⟨S1024, .i32⟩
  | .local _ .vmem, ⟨7, _⟩ => ⟨S1024, .i32⟩
  | .local _ .vmem, ⟨8, _⟩ => ⟨S1024, .f32⟩
  | .local _ .vmem, ⟨9, _⟩ => ⟨S1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x2048 : S1024x1.Broadcasts S1024x2048
  shapeCasts_S1024_S1x1024 : S1024.ShapeCasts S1x1024
  broadcasts_S1x1024_S64x1024 : S1x1024.Broadcasts S64x1024
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x8192.size a
  hwx0_0 : ∀ i : grid0.Coords, EltTy.bits .f32 = 32 ∨ (Rect.block (s := S64x8192) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .i32 = 32 ∨ (Rect.block (s := S8192x8192) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .i32 = 32 ∨ (Rect.block (s := S8192) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x8192.size a
  hwx0_5 : ∀ i : grid0.Coords, EltTy.bits .f32 = 32 ∨ (Rect.block (s := S64x8192) S64x1024.size (cc0_transform_5 i) (hinb0_5 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S8192, .f32⟩
  | .hbm, ⟨3, _⟩ => ⟨S8192, .i32⟩
  | .hbm, ⟨4, _⟩ => ⟨S8192, .f32⟩
  | .hbm, ⟨5, _⟩ => ⟨S8192x8192, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S1x8192, .f32⟩
  | .hbm, ⟨15, _⟩ => ⟨S64x8192, .f32⟩
  | .hbm, ⟨16, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_1_0_0_n_n_wf : DotDims.WF S64x8192 S8192x8192 S64x8192 [1] [1] [0] [0] [] []

variable [Facts₀]

def dot_S64x8192_S8192x8192_S64x8192_1_1_0_0_n_n : DotDims S64x8192 S8192x8192 S64x8192 where
  lhsContracting := [1]
  rhsContracting := [1]
  lhsNonContracting := [0]
  rhsNonContracting := [0]
  lhsBatch := []
  rhsBatch := []
  wf := dot_S64x8192_S8192x8192_S64x8192_1_1_0_0_n_n_wf

class Facts : Prop extends Facts₀ where

variable [Facts]
-- ==== Proof.LibSumBlocks.lean ====
/-
  Regrouping a finite sum into consecutive blocks, in any additive commutative monoid (used at the extended
  reals, where addition is commutative and associative although it is not cancellative): a sum over
  `a * b` consecutive positions is the sum over `a` blocks of the sums over the `b` positions of each
  block, and a sum over four blocks is the left-to-right accumulation `(((0 + s₀) + s₁) + s₂) + s₃`.
  Nothing here needs the summands to be finite.
-/
import Mathlib.Algebra.BigOperators.Fin
import Mathlib.Logic.Equiv.Fin.Basic

namespace Cert.SumBlocks

open scoped BigOperators

/-- A sum over the positions `0 … a*b-1` is the sum over blocks `k < a` of the sums over the offsets
    `j < b` inside block `k`, position `k * b + j`. -/
theorem sum_blocks {M : Type*} [AddCommMonoid M] (a b : ℕ) (f : ℕ → M) :
    ∑ i : Fin (a * b), f i.val = ∑ k : Fin a, ∑ j : Fin b, f (k.val * b + j.val) := by
  rw [← Fintype.sum_prod_type' (f := fun (k : Fin a) (j : Fin b) => f (k.val * b + j.val))]
  refine (Fintype.sum_equiv finProdFinEquiv _ _ ?_).symm
  rintro ⟨k, j⟩
  show f (k.val * b + j.val) = f (finProdFinEquiv (k, j)).val
  congr 1
  simp only [finProdFinEquiv_apply_val]
  rw [Nat.mul_comm, Nat.add_comm]

/-- Four blocks accumulated from zero, left to right, are their sum. -/
theorem acc_four {M : Type*} [AddCommMonoid M] (s : Fin 4 → M) :
    (((0 + s 0) + s 1) + s 2) + s 3 = ∑ k : Fin 4, s k := by
  rw [Fin.sum_univ_four, zero_add]

end Cert.SumBlocks
-- ==== Proof.Spec.lean ====
/-
  What both programs compute, as one function of the five argument arrays, element by element, over the
  extended reals: a linear layer whose weight is stored as integer codes `q` with, per output channel `o`, a
  zero point `z(o)`, a scale `s(o)` and a bias `b(o)`:

      out(r, o) = ( Σ_{k < 8192} x(r, k) · ((q(o, k) - z(o)) · s(o)) ) + b(o),

  the integer codes and zero points read exactly as real numbers. Also the blocked form of the same sum: the
  8192 reduction positions cut into four consecutive blocks of 2048, the block sums accumulated from zero in
  order — equal to the whole sum because addition of extended reals is commutative and associative (no
  cancellation or distributivity is used, so nothing needs to be finite).
-/
import proofs.«119221_j11751030522137_1_alg».proof.Proof.LibSumBlocks
import Idealize.ShloMosaic.PureOps.Ideal
import Idealize.ShloMosaic.Lib.ValueIdx

noncomputable section

namespace Cert.Spec

open Idealize.ShloMosaic Idealize.ShloMosaic.ValueIdx
open scoped BigOperators

/-- Activations [64, 8192]; weight codes [8192, 8192] (output channel, reduction position); per-channel vectors [8192]. -/
abbrev SX : Shape := ⟨2, ![64, 8192]⟩
abbrev SQ : Shape := ⟨2, ![8192, 8192]⟩
abbrev SV : Shape := ⟨1, ![8192]⟩

/-- The dequantised weight of output channel `o` at reduction position `k`. -/
def wgt (q : SQ.Idx → BitVec 32) (z : SV.Idx → BitVec 32) (s : SV.Idx → Ideal .f32) (o k : Fin 8192) : EReal :=
  (FloatOps.sitofp (F := Ideal) .f32 (q (ix2 o k)) - FloatOps.sitofp (F := Ideal) .f32 (z (ix1 o))) * s (ix1 o)

/-- One term of the product: activation row `r` against channel `o` at reduction position `k`. -/
def term (x : SX.Idx → Ideal .f32) (q : SQ.Idx → BitVec 32) (z : SV.Idx → BitVec 32) (s : SV.Idx → Ideal .f32)
    (r : Fin 64) (o : Fin 8192) (k : Fin 8192) : EReal :=
  x (ix2 r k) * wgt q z s o k

/-- The result array: the product of the activations with the dequantised weight, plus the bias. -/
def G (x : SX.Idx → Ideal .f32) (q : SQ.Idx → BitVec 32) (s : SV.Idx → Ideal .f32) (z : SV.Idx → BitVec 32)
    (b : SV.Idx → Ideal .f32) : SX.Idx → Ideal .f32 := fun i =>
  (∑ k : Fin 8192, term x q z s (i 0) (i 1) k) + b (ix1 (i 1))

/-- Position `j` of reduction block `kb` (four blocks of 2048). -/
def pos (kb : Fin 4) (j : Fin 2048) : Fin 8192 := ⟨kb.val * 2048 + j.val, by have := kb.isLt; have := j.isLt; omega⟩

/-- The part of the product that reduction block `kb` contributes. -/
def part (x : SX.Idx → Ideal .f32) (q : SQ.Idx → BitVec 32) (z : SV.Idx → BitVec 32) (s : SV.Idx → Ideal .f32)
    (r : Fin 64) (o : Fin 8192) (kb : Fin 4) : EReal :=
  ∑ j : Fin 2048, term x q z s r o (pos kb j)

/-- The whole sum is the sum of the four blocks' parts. -/
theorem sum_parts (x : SX.Idx → Ideal .f32) (q : SQ.Idx → BitVec 32) (z : SV.Idx → BitVec 32) (s : SV.Idx → Ideal .f32)
    (r : Fin 64) (o : Fin 8192) :
    ∑ k : Fin 8192, term x q z s r o k = ∑ kb : Fin 4, part x q z s r o kb := by
  have h := Cert.SumBlocks.sum_blocks (M := EReal) 4 2048
    (fun n => if h : n < 8192 then term x q z s r o ⟨n, h⟩ else 0)
  have e1 : (∑ k : Fin 8192, term x q z s r o k)
      = ∑ i : Fin (4 * 2048), (fun n => if h : n < 8192 then term x q z s r o ⟨n, h⟩ else 0) i.val :=
    Finset.sum_congr rfl fun k _ => by
      show _ = dite _ _ _
      rw [dif_pos k.isLt]
  rw [e1, h]
  refine Finset.sum_congr rfl fun kb _ => Finset.sum_congr rfl fun j _ => ?_
  have hlt : kb.val * 2048 + j.val < 8192 := by have := kb.isLt; have := j.isLt; omega
  show dite _ _ _ = _
  rw [dif_pos hlt]
  rfl

/-- The parts accumulated from zero in block order, plus the bias, is the result. -/
theorem acc_eq_G (x : SX.Idx → Ideal .f32) (q : SQ.Idx → BitVec 32) (s : SV.Idx → Ideal .f32) (z : SV.Idx → BitVec 32)
    (b : SV.Idx → Ideal .f32) (r : Fin 64) (o : Fin 8192) :
    ((((0 + part x q z s r o 0) + part x q z s r o 1) + part x q z s r o 2) + part x q z s r o 3) + b (ix1 o)
      = G x q s z b (ix2 r o) := by
  show _ = (∑ k : Fin 8192, term x q z s r o k) + b (ix1 o)
  rw [sum_parts, ← Cert.SumBlocks.acc_four]

/-- Channel `o` of output tile `ob` (eight tiles of 1024 channels). -/
def chan (ob : Fin 8) (o : Fin 1024) : Fin 8192 := ⟨ob.val * 1024 + o.val, by have := ob.isLt; have := o.isLt; omega⟩

/-- The accumulation in block order: `0 + p 0` after the first block, then one more part per block. -/
def accUpTo (p : ℕ → EReal) : ℕ → EReal
  | 0 => 0 + p 0
  | k + 1 => accUpTo p k + p (k + 1)

/-- The part of reduction block number `kb` (a natural number; zero beyond the four blocks). -/
def partN (x : SX.Idx → Ideal .f32) (q : SQ.Idx → BitVec 32) (z : SV.Idx → BitVec 32) (s : SV.Idx → Ideal .f32)
    (r : Fin 64) (o : Fin 8192) (kb : ℕ) : EReal :=
  if h : kb < 4 then part x q z s r o ⟨kb, h⟩ else 0

theorem partN_of_lt (x : SX.Idx → Ideal .f32) (q : SQ.Idx → BitVec 32) (z : SV.Idx → BitVec 32) (s : SV.Idx → Ideal .f32)
    (r : Fin 64) (o : Fin 8192) (kb : Fin 4) : partN x q z s r o kb.val = part x q z s r o kb := by
  unfold partN
  rw [dif_pos kb.isLt]

/-- After the fourth block the accumulation, plus the bias, is the result. -/
theorem accUpTo_three (x : SX.Idx → Ideal .f32) (q : SQ.Idx → BitVec 32) (s : SV.Idx → Ideal .f32) (z : SV.Idx → BitVec 32)
    (b : SV.Idx → Ideal .f32) (r : Fin 64) (o : Fin 8192) :
    accUpTo (partN x q z s r o) 3 + b (ix1 o) = G x q s z b (ix2 r o) := by
  rw [← acc_eq_G]
  show (((0 + partN x q z s r o 0) + partN x q z s r o 1) + partN x q z s r o 2) + partN x q z s r o 3 + _ = _
  have e0 : partN x q z s r o 0 = part x q z s r o 0 := partN_of_lt x q z s r o 0
  have e1 : partN x q z s r o 1 = part x q z s r o 1 := partN_of_lt x q z s r o 1
  have e2 : partN x q z s r o 2 = part x q z s r o 2 := partN_of_lt x q z s r o 2
  have e3 : partN x q z s r o 3 = part x q z s r o 3 := partN_of_lt x q z s r o 3
  rw [e0, e1, e2, e3]

end Cert.Spec

end
-- ==== Proof.RefIsSpec.lean ====
/-
  The reference computes the specified function. Read one operation at a time at an index (r, o): the result is
  the sum over the 8192 reduction positions k of `x(r,k) · ((q(o,k) - z(o)) · s(o))` plus `b(o)` — the zero
  points and scales reach (o, k) through a column [8192, 1] repeated along the reduction axis, the bias reaches
  (r, o) through a row [1, 8192] repeated over the 64 rows, and the contraction runs over the last axis of both
  operands.
-/
import proofs.«119221_j11751030522137_1_alg».proof.Proof.Gen.ReferenceIdeal.Read
import proofs.«119221_j11751030522137_1_alg».proof.Proof.Spec

noncomputable section

namespace Cert.ReferenceIdeal.RefValue

open Cert.ReferenceIdeal Cert.ReferenceIdeal.Read Idealize.ShloMosaic Idealize.ShloMosaic.ValueIdx

/-- The left operand's index at reduction position `k` is (r, k). -/
theorem lidx_eq (r : Fin 64) (o k : Fin 8192) : lidx_main_v8 (ix2 r o) k = ix2 r k :=
  funext fun a => Fin.ext (by match a with | ⟨0, _⟩ => rfl | ⟨1, _⟩ => rfl)

/-- The right operand's index at reduction position `k` is (o, k). -/
theorem ridx_eq (r : Fin 64) (o k : Fin 8192) : ridx_main_v8 (ix2 r o) k = ix2 o k :=
  funext fun a => Fin.ext (by match a with | ⟨0, _⟩ => rfl | ⟨1, _⟩ => rfl)

/-- The zero point that reaches (o, k) is channel `o`'s. -/
theorem zidx_eq (o k : Fin 8192) : idx_main_v2 (idx_main_v3 (ix2 o k)) = ix1 o :=
  funext fun a => Fin.ext (by match a with | ⟨0, _⟩ => rfl)

/-- The scale that reaches (o, k) is channel `o`'s. -/
theorem sidx_eq (o k : Fin 8192) : idx_main_v5 (idx_main_v6 (ix2 o k)) = ix1 o :=
  funext fun a => Fin.ext (by match a with | ⟨0, _⟩ => rfl)

/-- The bias that reaches (r, o) is channel `o`'s. -/
theorem bidx_eq (r : Fin 64) (o : Fin 8192) : idx_main_v9 (idx_main_v10 (ix2 r o)) = ix1 o :=
  funext fun a => Fin.ext (by match a with | ⟨0, _⟩ => rfl)

/-- The reference's result array is the specified function of the five arguments. -/
theorem ref_eq_G (x0 : (⟨S64x8192, .f32⟩ : BufTy).Contents (Elt Ideal)) (x1 : (⟨S8192x8192, .i32⟩ : BufTy).Contents (Elt Ideal))
    (x2 : (⟨S8192, .f32⟩ : BufTy).Contents (Elt Ideal)) (x3 : (⟨S8192, .i32⟩ : BufTy).Contents (Elt Ideal))
    (x4 : (⟨S8192, .f32⟩ : BufTy).Contents (Elt Ideal)) :
    val_main_v11 (F := Ideal) x0 x1 x2 x3 x4 = Cert.Spec.G x0 x1 x2 x3 x4 := by
  funext i
  obtain ⟨r, o, rfl⟩ : ∃ (r : Fin 64) (o : Fin 8192), i = ix2 r o := ⟨i 0, i 1, eq_ix2 i⟩
  rw [val_main_v11_apply, val_main_v8_apply, val_main_v10_apply, val_main_v9_apply, bidx_eq]
  show (∑ k : Fin 8192, _) + _ = (∑ k : Fin 8192, Cert.Spec.term x0 x1 x3 x2 r o k) + x4 (ix1 o)
  refine congrArg (· + x4 (ix1 o)) (Finset.sum_congr rfl fun k _ => ?_)
  rw [lidx_eq, ridx_eq, val_main_v7_apply, val_main_v4_apply, val_main_v0_apply, val_main_v3_apply, val_main_v2_apply,
    val_main_v1_apply, val_main_v6_apply, val_main_v5_apply, zidx_eq, sidx_eq]
  rfl

end Cert.ReferenceIdeal.RefValue

end
-- ==== Proof.Cases.lean ====
/-
  What the body leaves behind in each of its three control cases, as values. The body keeps an accumulator
  between grid points. At the first reduction block of an output tile it first resets the accumulator to zero;
  at every point it adds the block's part of the product to the accumulator; at the last reduction block it also
  writes accumulator plus bias to the output block. Every store covers its whole buffer and every load reads a
  whole buffer, so what a buffer holds afterwards is the last stored value, and a value loaded after a store is
  the value stored:
    first block  : accumulator = (stored value 2)(x, q, z, s, zero block)
    middle block : accumulator = (stored value 2)(x, q, z, s, previous accumulator)
    last block   : accumulator as in a middle block, output = (stored value 3)(that accumulator, bias).
  Stated for every float instance: nothing here looks inside the arithmetic.
-/
import proofs.«119221_j11751030522137_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A middle reduction block: the accumulator ends at the accumulating store's value over what it held. -/
theorem scratch_B (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1024 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : ¬cond0_1 i)
    (x0 : Vec F S64x2048 .f32) (x1 : Vec F S1024x2048 .i32) (x2 : Vec F S1024 .f32) (x3 : Vec F S1024 .i32) (x4 : Vec F S1024 .f32) (xs0 : Vec F S64x1024 .f32) :
    sout0_B_0 c i arg2 harg2 arg3 harg3 arg4 harg4 arg5 harg5 arg6 harg6 arg7 harg7 arg8 harg8 hc0 hc1 x0 x1 x2 x3 x4 xs0 = k0_pay2 x0 x1 x3 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg8.read_unread,
    View.ld_unit_zero (S := S64x2048) hz2, View.ld_unit_zero (S := S1024x2048) hz2, View.ld_unit_zero (S := S1024) hz1,
    View.ld_unit_zero (S := S64x1024) hz2]

/-- The first reduction block: the accumulator is reset, read back, and ends at the accumulating store's value
    over the zero block. -/
theorem scratch_A (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1024 .f32) (harg6 : arg6.IsWhole) (arg7 : Memref sig .tc .vmem S64x1024 .f32) (harg7 : arg7.IsWhole) (arg8 : Memref sig .tc .vmem S64x1024 .f32) (harg8 : arg8.IsWhole) (hc0 : cond0_0 i) (hc1 : ¬cond0_1 i)
    (x0 : Vec F S64x2048 .f32) (x1 : Vec F S1024x2048 .i32) (x2 : Vec F S1024 .f32) (x3 : Vec F S1024 .i32) (x4 : Vec F S1024 .f32) :
    sout0_A_0 c i arg2 harg2 arg3 harg3 arg4 harg4 arg5 harg5 arg6 harg6 arg7 harg7 arg8 harg8 hc0 hc1 x0 x1 x2 x3 x4 = k0_pay2 x0 x1 x3 x2 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S64x1024) hz2, View.readCov_unit_zero (S := S64x1024) _ hz2]
  simp only [View.readAt_eq_ld, harg2.read_unread, harg3.read_unread, harg4.read_unread, harg5.read_unread,
    View.ld_unit_zero (S := S64x2048) hz2, View.ld_unit_zero (S := S1024x2048) hz2, View.ld_unit_zero (S := S1024) hz1]

/-- The last reduction block: the accumulator ends as in a middle block. -/
theorem scratch_C (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1024 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i)
    (x0 : Vec F S64x2048 .f32) (x1 : Vec F S1024x2048 .i32) (x2 : Vec F S1024 .f32) (x3 : Vec F S1024 .i32) (x4 : Vec F S1024 .f32) (xs0 : Vec F S64x1024 .f32) :
    sout0_C_0 c i arg2 harg2 arg3 harg3 arg4 harg4 arg5 harg5 arg6 harg6 arg7 harg7 arg8 harg8 hc0 hc1 x0 x1 x2 x3 x4 xs0 = k0_pay2 x0 x1 x3 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg8.read_unread,
    View.ld_unit_zero (S := S64x2048) hz2, View.ld_unit_zero (S := S1024x2048) hz2, View.ld_unit_zero (S := S1024) hz1,
    View.ld_unit_zero (S := S64x1024) hz2]

/-- The last reduction block: the output block ends at the final store's value of that accumulator and the bias. -/
theorem out_C (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1024 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i)
    (x0 : Vec F S64x2048 .f32) (x1 : Vec F S1024x2048 .i32) (x2 : Vec F S1024 .f32) (x3 : Vec F S1024 .i32) (x4 : Vec F S1024 .f32) (xs0 : Vec F S64x1024 .f32) :
    out0_C_5 c i arg2 harg2 arg3 harg3 arg4 harg4 arg5 harg5 arg6 harg6 arg7 harg7 arg8 harg8 hc0 hc1 x0 x1 x2 x3 x4 xs0 = k0_pay3 (k0_pay2 x0 x1 x3 x2 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread,
    harg8.read_unread, View.ld_unit_zero (S := S64x2048) hz2, View.ld_unit_zero (S := S1024x2048) hz2,
    View.ld_unit_zero (S := S1024) hz1, View.ld_unit_zero (S := S64x1024) hz2]
  rw [View.readCov_unit_zero (S := S64x1024) _ hz2]

end Cert.KernelIdeal.Cases

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.Payload.lean ====
/-
  The body's three stored values, read at one element, at the ideal instance (floats are extended reals, every
  operation exact, a change of float format the identity).

  A grid point sees a [64, 2048] block `x` of the activations, a [1024, 2048] block `q` of integer weight codes,
  and per output channel of the block a zero point `z`, a scale `s` and a bias `b`. The dequantised weight of
  channel `o` at reduction position `k` is `(q(o,k) - z(o)) · s(o)`, the integers read exactly. The body
    * resets the accumulator to the zero block (first payload),
    * adds to the accumulator, at (r, o), the sum over the block's 2048 reduction positions k of
      `x(r,k) · ((q(o,k) - z(o)) · s(o))` (second payload: a matrix product contracting the last axis of both
      operands into a zero accumulator, then one addition),
    * and at the last reduction block stores the accumulator plus the bias of the channel (third payload).
-/
import proofs.«119221_j11751030522137_1_alg».proof.Proof.Gen.KernelIdeal.Skeleton
import proofs.«119221_j11751030522137_1_alg».proof.Proof.LibColumnCast
import proofs.«119221_j11751030522137_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The dequantised weight of channel `o` of the block at reduction position `k`: `(q(o,k) - z(o)) · s(o)`. -/
def wblk (q : Vec Ideal S1024x2048 .i32) (z : Vec Ideal S1024 .i32) (s : Vec Ideal S1024 .f32)
    (o : Fin 1024) (k : Fin 2048) : EReal :=
  (FloatOps.sitofp (F := Ideal) .f32 (q (ix2 o k)) - FloatOps.sitofp (F := Ideal) .f32 (z (ix1 o))) * s (ix1 o)

/-- The reset value is zero everywhere. -/
theorem pay1_apply (j : S64x1024.Idx) : k0_pay1 (F := Ideal) j = 0 := by
  unfold k0_pay1
  rw [shapeCast_self]
  show Ideal.ofBits .f32 0x00000000#32 = 0
  exact Ideal.ofBits_zero_f32

/-- The right operand of the matrix product at (o, k): the dequantised weight. The zero point and the scale are
    vectors over the channels, turned into columns and repeated along the reduction axis. -/
theorem rhs_apply (q : Vec Ideal S1024x2048 .i32) (z : Vec Ideal S1024 .i32) (s : Vec Ideal S1024 .f32)
    (o : Fin 1024) (k : Fin 2048) :
    (truncf .bf16 (mulf (subf (sitofp .f32 q : FVec Ideal S1024x2048 .f32)
        (broadcastTo S1024x2048 (shapeCast S1024x1 (sitofp .f32 z : FVec Ideal S1024 .f32) shapeCasts_S1024_S1024x1) broadcasts_S1024x1_S1024x2048))
        (broadcastTo S1024x2048 (shapeCast S1024x1 s shapeCasts_S1024_S1024x1) broadcasts_S1024x1_S1024x2048))
      bitsLt_bf16_f32 : FVec Ideal S1024x2048 .bf16) (ix2 o k) = wblk q z s o k := by
  rw [truncf_apply, mulf_apply, subf_apply, sitofp_apply]
  rw [ColumnBroadcast.broadcastTo_a1_ab_apply, ColumnBroadcast.broadcastTo_a1_ab_apply,
    ColumnCast.shapeCast_col_apply, ColumnCast.shapeCast_col_apply, sitofp_apply]
  rfl

/-- The product's dimension numbers send the result's row coordinate to the left operand's row, -/
theorem lhs_row (j : S64x1024.Idx) (c : dot_S64x2048_S1024x2048_S64x1024_1_1_0_0_n_n.contr.Idx) :
    (dot_S64x2048_S1024x2048_S64x1024_1_1_0_0_n_n.lhsIdx j c 0).val = (j 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl
/-- the contracted coordinate to the left operand's last axis, -/
theorem lhs_red (j : S64x1024.Idx) (c : dot_S64x2048_S1024x2048_S64x1024_1_1_0_0_n_n.contr.Idx) :
    (dot_S64x2048_S1024x2048_S64x1024_1_1_0_0_n_n.lhsIdx j c 1).val = (c ⟨0, by decide⟩).val :=
  dot_S64x2048_S1024x2048_S64x1024_1_1_0_0_n_n.lhsIdx_val_of_single rfl j c
/-- the result's channel coordinate to the right operand's row, -/
theorem rhs_row (j : S64x1024.Idx) (c : dot_S64x2048_S1024x2048_S64x1024_1_1_0_0_n_n.contr.Idx) :
    (dot_S64x2048_S1024x2048_S64x1024_1_1_0_0_n_n.rhsIdx j c 0).val = (j 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl
/-- and the contracted coordinate to the right operand's last axis. -/
theorem rhs_red (j : S64x1024.Idx) (c : dot_S64x2048_S1024x2048_S64x1024_1_1_0_0_n_n.contr.Idx) :
    (dot_S64x2048_S1024x2048_S64x1024_1_1_0_0_n_n.rhsIdx j c 1).val = (c ⟨0, by decide⟩).val :=
  dot_S64x2048_S1024x2048_S64x1024_1_1_0_0_n_n.rhsIdx_val_of_single rfl j c

/-- The accumulating store at (r, o): what the accumulator held there plus the block's part of the product. -/
theorem pay2_apply (x : Vec Ideal S64x2048 .f32) (q : Vec Ideal S1024x2048 .i32) (z : Vec Ideal S1024 .i32)
    (s : Vec Ideal S1024 .f32) (acc : Vec Ideal S64x1024 .f32) (r : Fin 64) (o : Fin 1024) :
    k0_pay2 (F := Ideal) x q z s acc (ix2 r o) = acc (ix2 r o) + ∑ k : Fin 2048, x (ix2 r k) * wblk q z s o k := by
  unfold k0_pay2
  rw [shapeCast_self, addf_apply]
  refine congrArg (acc (ix2 r o) + ·) ?_
  simp only [matmul]
  rw [Ideal.matmul_constant_zero_apply,
    ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 r o)
      ((contrEquiv1 dot_S64x2048_S1024x2048_S64x1024_1_1_0_0_n_n 2048 rfl rfl).symm k) = ix2 r k :=
    funext fun a => Fin.ext (by
      match a with
      | ⟨0, _⟩ => exact lhs_row _ _
      | ⟨1, _⟩ => exact (lhs_red _ _).trans hk)
  have er : dot_S64x2048_S1024x2048_S64x1024_1_1_0_0_n_n.rhsIdx (ix2 r o)
      ((contrEquiv1 dot_S64x2048_S1024x2048_S64x1024_1_1_0_0_n_n 2048 rfl rfl).symm k) = ix2 o k :=
    funext fun a => Fin.ext (by
      match a with
      | ⟨0, _⟩ => exact rhs_row _ _
      | ⟨1, _⟩ => exact (rhs_red _ _).trans hk)
  rw [el, er, rhs_apply, truncf_apply]

/-- The final store at (r, o): the accumulator there plus the channel's bias (a vector over the channels, turned
    into one row and repeated over the 64 rows). -/
theorem pay3_apply (acc : Vec Ideal S64x1024 .f32) (b : Vec Ideal S1024 .f32) (r : Fin 64) (o : Fin 1024) :
    k0_pay3 (F := Ideal) acc b (ix2 r o) = acc (ix2 r o) + b (ix1 o) := by
  unfold k0_pay3
  rw [addf_apply, broadcastTo_1b_ab_apply, shapeCast_a_1a_apply]

end Cert.KernelIdeal.Payload

end
-- ==== Proof.Blocks.lean ====
/-
  Where the blocks sit. The grid has 32 points; point `t` works on output tile `t / 4` (1024 channels) and
  reduction block `t % 4` (2048 reduction positions). At that point the activations' block is all 64 rows at
  the reduction block's positions, the weight codes' block is the tile's channels at those positions, the zero
  points', scales' and bias' blocks are the tile's channels, and the output block is all 64 rows at the tile's
  channels. A block's element at a coordinate inside the block is the array's element at
  (block index) · (block extent) + (that coordinate), axis by axis.
-/
import proofs.«119221_j11751030522137_1_alg».proof.Proof.Gen.KernelIdeal.Frame
import proofs.«119221_j11751030522137_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

theorem N32 : cfg0.N = 32 := N_0

/-- The reduction block of grid point `t`. -/
def kblk (t : Fin cfg0.N) : Fin 4 := ⟨t.val % 4, Nat.mod_lt _ (by decide)⟩
/-- The output tile of grid point `t`. -/
def oblk (t : Fin cfg0.N) : Fin 8 := ⟨t.val / 4, by have := t.isLt; have := N32; omega⟩

/-- The windows' block indices at every grid point, decided over the grid. -/
theorem idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 1) = t.val / 4
    ∧ win0_3.index t (0 : Fin 1) = t.val / 4
    ∧ win0_4.index t (0 : Fin 1) = t.val / 4
    ∧ win0_5.index t (0 : Fin 2) = 0 ∧ win0_5.index t (1 : Fin 2) = t.val / 4 :=
  (by decide +kernel : ∀ t : Fin grid0.N, _)

/-- The activations' block at (r, k) is the activations at row r, position k of the point's reduction block. -/
theorem x_blk (c : Dev nD) (t : Fin cfg0.N) (r : Fin 64) (k : Fin 2048) :
    (iblk m c 0 t : Vec F S64x2048 .f32) (ix2 r k)
      = (m ((c : Thread nD τ).loc main_arg0) : S64x8192.Idx → Elt F .f32) (ix2 r (Cert.Spec.pos (kblk t) k)) := by
  obtain ⟨e0, e1, -⟩ := idx_facts t
  show (V m c main_arg0 : S64x8192.Idx → Elt F .f32) (((cfg0.win 0).blk t).view.emb (ix2 r k)) = _
  refine congrArg _ (funext fun a => Fin.ext ?_)
  match a with
  | ⟨0, _⟩ => show win0_0.index t (0 : Fin 2) * 64 + 1 * r.val = r.val; rw [e0]; omega
  | ⟨1, _⟩ => show win0_0.index t (1 : Fin 2) * 2048 + 1 * k.val = t.val % 4 * 2048 + k.val; rw [e1]; omega

/-- The weight codes' block at (o, k) is the codes at the tile's channel o, position k of the reduction block. -/
theorem q_blk (c : Dev nD) (t : Fin cfg0.N) (o : Fin 1024) (k : Fin 2048) :
    (iblk m c 1 t : Vec F S1024x2048 .i32) (ix2 o k)
      = (m ((c : Thread nD τ).loc main_arg1) : S8192x8192.Idx → Elt F .i32)
          (ix2 (Cert.Spec.chan (oblk t) o) (Cert.Spec.pos (kblk t) k)) := by
  obtain ⟨-, -, e0, e1, -⟩ := idx_facts t
  show (V m c main_arg1 : S8192x8192.Idx → Elt F .i32) (((cfg0.win 1).blk t).view.emb (ix2 o k)) = _
  refine congrArg _ (funext fun a => Fin.ext ?_)
  match a with
  | ⟨0, _⟩ => show win0_1.index t (0 : Fin 2) * 1024 + 1 * o.val = t.val / 4 * 1024 + o.val; rw [e0]; omega
  | ⟨1, _⟩ => show win0_1.index t (1 : Fin 2) * 2048 + 1 * k.val = t.val % 4 * 2048 + k.val; rw [e1]; omega

/-- The scales' block at o is the scale of the tile's channel o. -/
theorem s_blk (c : Dev nD) (t : Fin cfg0.N) (o : Fin 1024) :
    (iblk m c 2 t : Vec F S1024 .f32) (ix1 o)
      = (m ((c : Thread nD τ).loc main_arg2) : S8192.Idx → Elt F .f32) (ix1 (Cert.Spec.chan (oblk t) o)) := by
  obtain ⟨-, -, -, -, e0, -⟩ := idx_facts t
  show (V m c main_arg2 : S8192.Idx → Elt F .f32) (((cfg0.win 2).blk t).view.emb (ix1 o)) = _
  refine congrArg _ (funext fun a => Fin.ext ?_)
  match a with
  | ⟨0, _⟩ => show win0_2.index t (0 : Fin 1) * 1024 + 1 * o.val = t.val / 4 * 1024 + o.val; rw [e0]; omega

/-- The zero points' block at o is the zero point of the tile's channel o. -/
theorem z_blk (c : Dev nD) (t : Fin cfg0.N) (o : Fin 1024) :
    (iblk m c 3 t : Vec F S1024 .i32) (ix1 o)
      = (m ((c : Thread nD τ).loc main_arg3) : S8192.Idx → Elt F .i32) (ix1 (Cert.Spec.chan (oblk t) o)) := by
  obtain ⟨-, -, -, -, -, e0, -⟩ := idx_facts t
  show (V m c main_arg3 : S8192.Idx → Elt F .i32) (((cfg0.win 3).blk t).view.emb (ix1 o)) = _
  refine congrArg _ (funext fun a => Fin.ext ?_)
  match a with
  | ⟨0, _⟩ => show win0_3.index t (0 : Fin 1) * 1024 + 1 * o.val = t.val / 4 * 1024 + o.val; rw [e0]; omega

/-- The bias' block at o is the bias of the tile's channel o. -/
theorem b_blk (c : Dev nD) (t : Fin cfg0.N) (o : Fin 1024) :
    (iblk m c 4 t : Vec F S1024 .f32) (ix1 o)
      = (m ((c : Thread nD τ).loc main_arg4) : S8192.Idx → Elt F .f32) (ix1 (Cert.Spec.chan (oblk t) o)) := by
  obtain ⟨-, -, -, -, -, -, e0, -⟩ := idx_facts t
  show (V m c main_arg4 : S8192.Idx → Elt F .f32) (((cfg0.win 4).blk t).view.emb (ix1 o)) = _
  refine congrArg _ (funext fun a => Fin.ext ?_)
  match a with
  | ⟨0, _⟩ => show win0_4.index t (0 : Fin 1) * 1024 + 1 * o.val = t.val / 4 * 1024 + o.val; rw [e0]; omega

/-- The output block's element (r, o) sits in the result array at row r, the tile's channel o. -/
theorem out_emb (t : Fin cfg0.N) (r : Fin 64) (o : Fin 1024) :
    (((cfg0.win 5).blk t).view.emb (ix2 r o) : S64x8192.Idx) = ix2 r (Cert.Spec.chan (oblk t) o) := by
  obtain ⟨-, -, -, -, -, -, -, e0, e1⟩ := idx_facts t
  refine funext fun a => Fin.ext ?_
  match a with
  | ⟨0, _⟩ => show win0_5.index t (0 : Fin 2) * 64 + 1 * r.val = r.val; rw [e0]; omega
  | ⟨1, _⟩ => show win0_5.index t (1 : Fin 2) * 1024 + 1 * o.val = t.val / 4 * 1024 + o.val; rw [e1]; omega

end Cert.KernelIdeal.Blocks

end
-- ==== Proof.Accum.lean ====
/-
  The accumulator across the grid. Grid point `t` works on output tile `t / 4` and reduction block `t % 4`, and
  the points of one tile come consecutively. By induction on the point: after point `t` the accumulator holds,
  at (r, o), the parts of reduction blocks `0 … t % 4` of the product for row r and the tile's channel o,
  accumulated from zero in block order. At the last block of a tile the output block is that accumulation of all
  four parts plus the channel's bias — the specified result at (r, the tile's channel o).
-/
import proofs.«119221_j11751030522137_1_alg».proof.Proof.Cases
import proofs.«119221_j11751030522137_1_alg».proof.Proof.Payload
import proofs.«119221_j11751030522137_1_alg».proof.Proof.Blocks
import proofs.«119221_j11751030522137_1_alg».proof.Proof.Spec

noncomputable section

namespace Cert.KernelIdeal.Accum

open Cert.KernelIdeal Cert.KernelIdeal.Gen Cert.KernelIdeal.Blocks Cert.KernelIdeal.Payload Cert.KernelIdeal.Cases
open Idealize.ShloMosaic Idealize.ShloMosaic.TcCoe Idealize.SL.Sem Idealize.ShloMosaic.ValueIdx
open Cert.Spec (chan pos part partN accUpTo)

variable (m : (ℓ : Loc nD τ sig) → Buf (Elt Ideal) ℓ)

/-- The five argument arrays as the region finds them. -/
abbrev X (c : Dev nD) : Cert.Spec.SX.Idx → Ideal .f32 := m ((c : Thread nD τ).loc main_arg0)
abbrev Q (c : Dev nD) : Cert.Spec.SQ.Idx → BitVec 32 := m ((c : Thread nD τ).loc main_arg1)
abbrev S (c : Dev nD) : Cert.Spec.SV.Idx → Ideal .f32 := m ((c : Thread nD τ).loc main_arg2)
abbrev Z (c : Dev nD) : Cert.Spec.SV.Idx → BitVec 32 := m ((c : Thread nD τ).loc main_arg3)
abbrev B (c : Dev nD) : Cert.Spec.SV.Idx → Ideal .f32 := m ((c : Thread nD τ).loc main_arg4)

/-- Blocks that are the arrays' restrictions to output tile `ob` and reduction block `kb` contribute that
    block's part of the product. -/
theorem part_of_blocks (x : Cert.Spec.SX.Idx → Ideal .f32) (q : Cert.Spec.SQ.Idx → BitVec 32) (z : Cert.Spec.SV.Idx → BitVec 32)
    (s : Cert.Spec.SV.Idx → Ideal .f32)
    (xb : Vec Ideal S64x2048 .f32) (qb : Vec Ideal S1024x2048 .i32) (zb : Vec Ideal S1024 .i32) (sb : Vec Ideal S1024 .f32)
    (ob : Fin 8) (kb : Fin 4)
    (hx : ∀ r k, xb (ix2 r k) = x (ix2 r (pos kb k)))
    (hq : ∀ o k, qb (ix2 o k) = q (ix2 (chan ob o) (pos kb k)))
    (hz : ∀ o, zb (ix1 o) = z (ix1 (chan ob o)))
    (hs : ∀ o, sb (ix1 o) = s (ix1 (chan ob o))) (r : Fin 64) (o : Fin 1024) :
    ∑ k : Fin 2048, xb (ix2 r k) * wblk qb zb sb o k = part x q z s r (chan ob o) kb := by
  unfold Cert.Spec.part Cert.Spec.term Cert.Spec.wgt wblk
  refine Finset.sum_congr rfl fun k _ => ?_
  rw [hx, hq, hz, hs]

/-- One accumulating store at point `t`: the accumulator's element plus the point's part. -/
theorem step (c : Dev nD) (t : Fin cfg0.N) (acc : Vec Ideal S64x1024 .f32) (r : Fin 64) (o : Fin 1024) :
    k0_pay2 (F := Ideal) (iblk m c 0 t) (iblk m c 1 t) (iblk m c 3 t) (iblk m c 2 t) acc (ix2 r o)
      = acc (ix2 r o) + part (X m c) (Q m c) (Z m c) (S m c) r (chan (oblk t) o) (kblk t) :=
  (pay2_apply (iblk m c 0 t) (iblk m c 1 t) (iblk m c 3 t) (iblk m c 2 t) acc r o).trans
    (congrArg (acc (ix2 r o) + ·)
      (part_of_blocks (X m c) (Q m c) (Z m c) (S m c) (iblk m c 0 t) (iblk m c 1 t) (iblk m c 3 t) (iblk m c 2 t)
        (oblk t) (kblk t) (x_blk m c t) (q_blk m c t) (z_blk m c t) (s_blk m c t) r o))

/-- At a tile's first point the accumulator ends at the accumulating store over the zero block, -/
theorem scratch_first (c : Dev nD) (t : Fin cfg0.N) (h0 : t.val % 4 = 0) (h1 : ¬t.val % 4 = 3) :
    (outsAt0 m c t.val t.isLt).2 = k0_pay2 (F := Ideal) (iblk m c 0 t) (iblk m c 1 t) (iblk m c 3 t) (iblk m c 2 t) (k0_pay1 (F := Ideal)) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- at every later point of the tile over what the point before left. -/
theorem scratch_later (c : Dev nD) (t : Fin cfg0.N) (h0 : ¬t.val % 4 = 0) :
    (outsAt0 m c t.val t.isLt).2
      = k0_pay2 (F := Ideal) (iblk m c 0 t) (iblk m c 1 t) (iblk m c 3 t) (iblk m c 2 t) (outsAt0 m c (t.val - 1) (Nat.lt_of_le_of_lt (Nat.sub_le _ _) t.isLt)).2 := by
  by_cases h1 : t.val % 4 = 3
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At a tile's last point the output block is the final store's value of the accumulator the point leaves and the
    bias block. -/
theorem out_last (c : Dev nD) (t : Fin cfg0.N) (h0 : ¬t.val % 4 = 0) (h1 : t.val % 4 = 3) :
    (outsAt0 m c t.val t.isLt).1 = k0_pay3 (F := Ideal) (outsAt0 m c t.val t.isLt).2 (iblk m c 4 t) := by
  rw [scratch_later m c t h0, outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- THE ACCUMULATOR after point `n`, at (r, o): the parts of reduction blocks `0 … n % 4` for row r and channel o of
    tile `n / 4`, accumulated from zero in block order. -/
theorem scratch_eq (c : Dev nD) : ∀ (n : ℕ) (h : n < cfg0.N) (r : Fin 64) (o : Fin 1024),
    (outsAt0 m c n h).2 (ix2 r o)
      = accUpTo (partN (X m c) (Q m c) (Z m c) (S m c) r (chan (oblk ⟨n, h⟩) o)) (n % 4) := by
  intro n
  induction n with
  | zero =>
    intro h r o
    rw [show (outsAt0 m c 0 h).2 = _ from scratch_first m c ⟨0, h⟩ rfl (by show ¬(0 : ℕ) % 4 = 3; decide), step, pay1_apply]
    show 0 + part _ _ _ _ r _ (kblk ⟨0, h⟩) = 0 + partN _ _ _ _ r _ 0
    rw [← Cert.Spec.partN_of_lt]
    rfl
  | succ n ih =>
    intro h r o
    have hN := N32
    by_cases h0 : (n + 1) % 4 = 0
    · have h1 : ¬(n + 1) % 4 = 3 := by omega
      rw [show (outsAt0 m c (n + 1) h).2 = _ from scratch_first m c ⟨n + 1, h⟩ h0 h1, step, pay1_apply, h0]
      show 0 + part _ _ _ _ r _ (kblk ⟨n + 1, h⟩) = 0 + partN _ _ _ _ r _ 0
      rw [← Cert.Spec.partN_of_lt]
      exact congrArg (fun k => 0 + partN _ _ _ _ r _ k) h0
    · have hn : n < cfg0.N := Nat.lt_of_succ_lt h
      rw [show (outsAt0 m c (n + 1) h).2 = _ from scratch_later m c ⟨n + 1, h⟩ h0, step]
      rw [show (outsAt0 m c ((⟨n + 1, h⟩ : Fin cfg0.N).val - 1) _).2 (ix2 r o) = (outsAt0 m c n hn).2 (ix2 r o) from rfl,
        ih hn r o]
      have eo : oblk ⟨n, hn⟩ = oblk ⟨n + 1, h⟩ := Fin.ext (by show n / 4 = (n + 1) / 4; omega)
      have ek : (n + 1) % 4 = n % 4 + 1 := by omega
      rw [eo, ek, ← Cert.Spec.partN_of_lt]
      show _ + partN _ _ _ _ r _ ((n + 1) % 4) = accUpTo _ (n % 4) + partN _ _ _ _ r _ (n % 4 + 1)
      rw [ek]

/-- THE OUTPUT BLOCK at a tile's last point, at (r, o): the specified result at row r, channel o of the tile. -/
theorem out_eq (c : Dev nD) (t : Fin cfg0.N) (h1 : t.val % 4 = 3) (r : Fin 64) (o : Fin 1024) :
    (outsAt0 m c t.val t.isLt).1 (ix2 r o)
      = Cert.Spec.G (X m c) (Q m c) (S m c) (Z m c) (B m c) (ix2 r (chan (oblk t) o)) := by
  have h0 : ¬t.val % 4 = 0 := by omega
  rw [out_last m c t h0 h1, pay3_apply, scratch_eq m c t.val t.isLt r o, h1, b_blk m c t o]
  exact Cert.Spec.accUpTo_three (X m c) (Q m c) (S m c) (Z m c) (B m c) r (chan (oblk t) o)

end Cert.KernelIdeal.Accum

end
-- ==== Proof.Final.lean ====
/-
  From blocks to the result array. The output block is written back only at a tile's last grid point
  (`t % 4 = 3`), and then it is the restriction of the specified result to rows 0…63 and the tile's 1024
  channels. The eight tiles cover every channel — channel `j` lies in tile `j / 1024`, written back at point
  `4 · (j / 1024) + 3` — so after the run the whole result array is the specified function of the arguments.
-/
import proofs.«119221_j11751030522137_1_alg».proof.Proof.Accum
import proofs.«119221_j11751030522137_1_alg».proof.Proof.Gen.KernelIdeal.Value

noncomputable section

namespace Cert.KernelIdeal.Final

open Cert.KernelIdeal Cert.KernelIdeal.Gen Cert.KernelIdeal.Blocks Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array: the specified function of the five argument arrays as launched. -/
abbrev result (c : Dev nD) : Buf (Elt Ideal) ((c : Thread nD τ).loc main_v0) :=
  Cert.Spec.G (X m c) (Q m c) (S m c) (Z m c) (B m c)

/-- What a tile's last point writes back is that tile's block of the result. -/
theorem flushed_eq (c : Dev nD) (t : Fin cfg0.N) (hf : (cfg0.win 5).flush t = true) :
    (dats m 0 c).flushed 5 t = ((cfg0.win 5).blk t).view.read (Elt Ideal) (result m c) := by
  have h1 : t.val % 4 = 3 := (flush0_5 t).mp hf
  rw [Cert.KernelIdeal.Value.flushed5]
  funext j
  obtain ⟨r, o, rfl⟩ : ∃ (r : Fin 64) (o : Fin 1024), j = ix2 r o := ⟨j 0, j 1, eq_ix2 j⟩
  show (outsAt0 m c t.val t.isLt).1 (ix2 r o) = result m c (((cfg0.win 5).blk t).view.emb (ix2 r o))
  rw [out_emb t r o]
  exact out_eq m c t h1 r o

/-- An index of the result array is in point `t`'s output block iff each coordinate is in the block's range. -/
theorem mem_blk (t : Fin cfg0.N) (i : S64x8192.Idx) :
    i ∈ ((cfg0.win 5).blk t).view.set ↔ ∀ a : Fin 2, win0_5.index t a * S64x1024.size a ≤ (i a).val ∧ (i a).val < win0_5.index t a * S64x1024.size a + S64x1024.size a := by
  show i ∈ ((View.whole main_v0).slice (win0_5.rect t)).set ↔ _
  rw [View.set_slice_whole, Rect.mem_set_unit]
  exact Iff.rfl

/-- Every index of the result array is in the block some tile's last point writes back. -/
theorem cover (i : S64x8192.Idx) : ∃ t : Fin cfg0.N, (cfg0.win 5).flush t = true ∧ i ∈ ((cfg0.win 5).blk t).view.set := by
  have hN := N32
  have hi0 : (i 0).val < 64 := (i 0).isLt
  have hi1 : (i 1).val < 8192 := (i 1).isLt
  refine ⟨⟨4 * ((i 1).val / 1024) + 3, by omega⟩, (flush0_5 _).mpr (by show (4 * ((i 1).val / 1024) + 3) % 4 = 3; omega), ?_⟩
  rw [mem_blk]
  obtain ⟨-, -, -, -, -, -, -, e0, e1⟩ := idx_facts (⟨4 * ((i 1).val / 1024) + 3, by omega⟩ : Fin cfg0.N)
  have e1' : win0_5.index (⟨4 * ((i 1).val / 1024) + 3, by omega⟩ : Fin cfg0.N) (1 : Fin 2) = (i 1).val / 1024 := by
    rw [e1]; show (4 * ((i 1).val / 1024) + 3) / 4 = (i 1).val / 1024; omega
  intro a
  match a with
  | ⟨0, _⟩ =>
    show win0_5.index _ (0 : Fin 2) * 64 ≤ (i 0).val ∧ (i 0).val < win0_5.index _ (0 : Fin 2) * 64 + 64
    rw [e0]; omega
  | ⟨1, _⟩ =>
    show win0_5.index _ (1 : Fin 2) * 1024 ≤ (i 1).val ∧ (i 1).val < win0_5.index _ (1 : Fin 2) * 1024 + 1024
    rw [e1']; omega

/-- After the run the result array is the specified function of the arguments. -/
theorem final (c : Dev nD) : (dats m 0 c).arrAt 5 cfg0.N = result m c :=
  (dats m 0 c).arrAt_eq_of_cover 5 (result m c) (flushed_eq m c) cover

/-- The kernel's run: every weakly fair execution terminates with the result array at the specified function of
    the arguments and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Final

end
-- ==== Proof.lean ====
/-
  A linear layer with a weight stored as integer codes: for activations x [64, 8192], codes q [8192, 8192]
  (output channel, reduction position) and per-channel scale s, zero point z and bias b,

      out(r, o) = Σ_{k < 8192} x(r, k) · ((q(o, k) - z(o)) · s(o)) + b(o).

  The kernel computes it tile by tile: the grid has 8 output tiles of 1024 channels times 4 reduction blocks of
  2048 positions; for each tile it resets an accumulator at the first reduction block, adds each block's part of
  the product (a matrix product of the activations' block with the dequantised weights' block, contracting the
  last axis of both), and at the last block writes accumulator plus bias to the tile's block of the result. The
  reference dequantises the whole weight, contracts over all 8192 positions at once and adds the bias.

  Over the extended reals, with every operation exact, the integer codes and zero points read exactly and a
  change of float format the identity, both are the same function of the arguments: the reference's one sum is
  the kernel's four block sums accumulated from zero in order, because addition of extended reals is
  commutative and associative. No product is distributed over a sum and nothing is cancelled, so the
  finiteness of the inputs is never used.

  The modules: LibSumBlocks (a sum over consecutive blocks), Spec (the function above and its blocked form),
  RefIsSpec (the reference is it), Payload (the body's stored values at an element), Cases (what the body leaves
  in each control case), Blocks (where each window's block sits in its array), Accum (the accumulator across the
  grid, by induction on the grid point), Final (the result array from its blocks, and the kernel's run). The
  three programs' frames and the two runs are the generated ones.
-/
import proofs.«119221_j11751030522137_1_alg».proof.Defs
import proofs.«119221_j11751030522137_1_alg».proof.Proof.Gen.Kernel
import proofs.«119221_j11751030522137_1_alg».proof.Proof.Gen.Kernel.Skeleton
import proofs.«119221_j11751030522137_1_alg».proof.Proof.Gen.Kernel.Launch
import proofs.«119221_j11751030522137_1_alg».proof.Proof.Gen.Kernel.Points
import proofs.«119221_j11751030522137_1_alg».proof.Proof.Gen.Kernel.Frame
import proofs.«119221_j11751030522137_1_alg».proof.Proof.Gen.KernelIdeal
import proofs.«119221_j11751030522137_1_alg».proof.Proof.Gen.KernelIdeal.Skeleton
import proofs.«119221_j11751030522137_1_alg».proof.Proof.Gen.KernelIdeal.Launch
import proofs.«119221_j11751030522137_1_alg».proof.Proof.Gen.KernelIdeal.Points
import proofs.«119221_j11751030522137_1_alg».proof.Proof.Gen.KernelIdeal.Frame
import proofs.«119221_j11751030522137_1_alg».proof.Proof.Gen.ReferenceIdeal
import proofs.«119221_j11751030522137_1_alg».proof.Proof.Gen.Pre_finite_inputs
import proofs.«119221_j11751030522137_1_alg».proof.Proof.Gen.KernelIdeal.Value
import proofs.«119221_j11751030522137_1_alg».proof.Proof.Gen.ReferenceIdeal.Run
import proofs.«119221_j11751030522137_1_alg».proof.Proof.Gen.ReferenceIdeal.Read
import proofs.«119221_j11751030522137_1_alg».proof.Proof.RefIsSpec
import proofs.«119221_j11751030522137_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the specified function of its arguments (the
    accumulated block sums plus the bias, tile by tile) and the reference's at the same function of its own. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_G, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
